-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : IVec S2x3200000 32) (main_arg2 : FVec F S512x16 .f32) (main_arg3 : FVec F S16 .f32) (main_arg4 : FVec F S16x40 .f32) (main_arg5 : FVec F S40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg4
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg5 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S2000x512 : Shape := ⟨2, ![2000, 512]⟩
abbrev S2000x16 : Shape := ⟨2, ![2000, 16]⟩
abbrev S3300000x16 : Shape := ⟨2, ![3300000, 16]⟩
abbrev S1x16 : Shape := ⟨2, ![1, 16]⟩
abbrev S100000x40 : Shape := ⟨2, ![100000, 40]⟩
abbrev S4000x16 : Shape := ⟨2, ![4000, 16]⟩
abbrev S4000x40 : Shape := ⟨2, ![4000, 40]⟩
abbrev S3300000x40 : Shape := ⟨2, ![3300000, 40]⟩
abbrev S1x40 : Shape := ⟨2, ![1, 40]⟩

abbrev nBuf : Space → Nat
  | .hbm => 90
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x16, .f32⟩
  | .hbm, ⟨48, _⟩ => ⟨S3300000x1, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S100000x16, .f32⟩
  | .hbm, ⟨67, _⟩ => ⟨S_, .f32⟩
  | .hbm, ⟨68, _⟩ => ⟨S100000x16, .f32⟩
  | .hbm, ⟨69, _⟩ => ⟨S100000x16, .f32⟩
  | .hbm, ⟨70, _⟩ => ⟨S100000x40, .f32⟩
  | .hbm, ⟨71, _⟩ => ⟨S3300000x1, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x40, .f32⟩
  | .hbm, ⟨81, _⟩ => ⟨S3300000x40, .f32⟩
  | .hbm, ⟨82, _⟩ => ⟨S3300000x40, .f32⟩
  | .hbm, ⟨83, _⟩ => ⟨S_, .f32⟩
  | .hbm, ⟨84, _⟩ => ⟨S100000x40, .f32⟩
  | .hbm, ⟨85, _⟩ => ⟨S3300000x1, .i32⟩
  | .hbm, ⟨86, _⟩ => ⟨S100000x40, .f32⟩
  | .hbm, ⟨87, _⟩ => ⟨S1x40, .f32⟩
  | .hbm, ⟨88, _⟩ => ⟨S100000x40, .f32⟩
  | .hbm, ⟨89, _⟩ => ⟨S100000x40, .f32⟩
  | .local _ .vmem, ⟨0, _⟩ => ⟨S2000x512, .f32⟩
  | .local _ .vmem, ⟨1, _⟩ => ⟨S2000x512, .f32⟩
  | .local _ .vmem, ⟨2, _⟩ => ⟨S512x16, .f32⟩
  | .local _ .vmem, ⟨3, _⟩ => ⟨S2000x16, .f32⟩
  | .local _ .vmem, ⟨4, _⟩ => ⟨S2000x16, .f32⟩
  | .local _ .vmem, ⟨5, _⟩ => ⟨S4000x16, .f32⟩
  | .local _ .vmem, ⟨6, _⟩ => ⟨S4000x16, .f32⟩
  | .local _ .vmem, ⟨7, _⟩ => ⟨S16x40, .f32⟩
  | .local _ .vmem, ⟨8, _⟩ => ⟨S4000x40, .f32⟩
  | .local _ .vmem, ⟨9, _⟩ => ⟨S4000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S2000x16_S2000x16_0_0 : ∀ a, (![0, 0] : Fin 2 → Nat) a + S2000x16.size a ≤ S2000x16.size a
  h_S2000x16 : 0 < S2000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  inb_S4000x16_S4000x16_0_0 : ∀ a, (![0, 0] : Fin 2 → Nat) a + S4000x16.size a ≤ S4000x16.size a
  h_S4000x16 : 0 < S4000x16.numel
  shapeCasts_S4000x16_S4000x16 : S4000x16.ShapeCasts S4000x16
  inb_S16x40_S16x40_0_0 : ∀ a, (![0, 0] : Fin 2 → Nat) a + S16x40.size a ≤ S16x40.size a
  h_S16x40 : 0 < S16x40.numel
  inb_S4000x40_S4000x40_0_0 : ∀ a, (![0, 0] : Fin 2 → Nat) a + S4000x40.size a ≤ S4000x40.size a
  h_S4000x40 : 0 < S4000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S2000x512_S512x16_S2000x16_1_0_0_1_n_n_wf : DotDims.WF S2000x512 S512x16 S2000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x40_S4000x40_1_0_0_1_n_n_wf : DotDims.WF S4000x16 S16x40 S4000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x16.size a ≤ S100000x16.size a
  hwx0_2 : ∀ i : grid0.Coords, EltTy.bits .f32 = 32 ∨ (Rect.block (s := S100000x16) S2000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x40.size a ≤ S16x40.size a
  hwx1_1 : ∀ i : grid1.Coords, EltTy.bits .f32 = 32 ∨ (Rect.block (s := S16x40) S16x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x40.size a ≤ S100000x40.size a
  hwx1_2 : ∀ i : grid1.Coords, EltTy.bits .f32 = 32 ∨ (Rect.block (s := S100000x40) S4000x40.size (cc1_transform_2 i) (hinb1_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S2000x512_S512x16_S2000x16_1_0_0_1_n_n : DotDims S2000x512 S512x16 S2000x16 where
  lhsContracting := [1]
  rhsContracting := [0]
  lhsNonContracting := [0]
  rhsNonContracting := [1]
  lhsBatch := []
  rhsBatch := []
  wf := dot_S2000x512_S512x16_S2000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x40_S4000x40_1_0_0_1_n_n : DotDims S4000x16 S16x40 S4000x40 where
  lhsContracting := [1]
  rhsContracting := [0]
  lhsNonContracting := [0]
  rhsNonContracting := [1]
  lhsBatch := []
  rhsBatch := []
  wf := dot_S4000x16_S16x40_S4000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S4000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x40 : Shape := ⟨2, ![16, 40]⟩
abbrev S40 : Shape := ⟨1, ![40]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩

abbrev nBuf : Space → Nat
  | .hbm => 90
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x40, .f32⟩
  | .hbm, ⟨5, _⟩ => ⟨S40, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S3300000, .f32⟩
  | .hbm, ⟨37, _⟩ => ⟨S_, .i32⟩
  | .hbm, ⟨38, _⟩ => ⟨S3300000, .i32⟩
  | .hbm, ⟨39, _⟩ => ⟨S3300000, .i1⟩
  | .hbm, ⟨40, _⟩ => ⟨S_, .i32⟩
  | .hbm, ⟨41, _⟩ => ⟨S3300000, .i32⟩
  | .hbm, ⟨42, _⟩ => ⟨S3300000, .i32⟩
  | .hbm, ⟨43, _⟩ => ⟨S3300000, .i32⟩
  | .hbm, ⟨44, _⟩ => ⟨S3300000x1, .i32⟩
  | .hbm, ⟨45, _⟩ => ⟨S3300000, .f32⟩
  | .hbm, ⟨46, _⟩ => ⟨S3300000, .f32⟩
  | .hbm, ⟨47, _⟩ => ⟨S100000x16, .f32⟩
  | .hbm, ⟨48, _⟩ => ⟨S3300000x1, .f32⟩
  | .hbm, ⟨49, _⟩ => ⟨S_, .i32⟩
  | .hbm, ⟨50, _⟩ => ⟨S3300000, .i32⟩
  | .hbm, ⟨51, _⟩ => ⟨S3300000, .i1⟩
  | .hbm, ⟨52, _⟩ => ⟨S_, .i32⟩
  | .hbm, ⟨53, _⟩ => ⟨S3300000, .i32⟩
  | .hbm, ⟨54, _⟩ => ⟨S3300000, .i32⟩
  | .hbm, ⟨55, _⟩ => ⟨S3300000, .i32⟩
  | .hbm, ⟨56, _⟩ => ⟨S3300000x1, .i32⟩
  | .hbm, ⟨57, _⟩ => ⟨S3300000x16, .f32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S100000x16, .f32⟩
  | .hbm, ⟨67, _⟩ => ⟨S_, .f32⟩
  | .hbm, ⟨68, _⟩ => ⟨S100000x16, .f32⟩
  | .hbm, ⟨69, _⟩ => ⟨S100000x16, .f32⟩
  | .hbm, ⟨70, _⟩ => ⟨S100000x40, .f32⟩
  | .hbm, ⟨71, _⟩ => ⟨S3300000x1, .f32⟩
  | .hbm, ⟨72, _⟩ => ⟨S_, .i32⟩
  | .hbm, ⟨73, _⟩ => ⟨S3300000, .i32⟩
  | .hbm, ⟨74, _⟩ => ⟨S3300000, .i1⟩
  | .hbm, ⟨75, _⟩ => ⟨S_, .i32⟩
  | .hbm, ⟨76, _⟩ => ⟨S3300000, .i32⟩
  | .hbm, ⟨77, _⟩ => ⟨S3300000, .i32⟩
  | .hbm, ⟨78, _⟩ => ⟨S3300000, .i32⟩
  | .hbm, ⟨79, _⟩ => ⟨S3300000x1, .i32⟩
  | .hbm, ⟨80, _⟩ => ⟨S3300000x40, .f32⟩
  | .hbm, ⟨81, _⟩ => ⟨S3300000x40, .f32⟩
  | .hbm, ⟨82, _⟩ => ⟨S3300000x40, .f32⟩
  | .hbm, ⟨83, _⟩ => ⟨S_, .f32⟩
  | .hbm, ⟨84, _⟩ => ⟨S100000x40, .f32⟩
  | .hbm, ⟨85, _⟩ => ⟨S3300000x1, .i32⟩
  | .hbm, ⟨86, _⟩ => ⟨S100000x40, .f32⟩
  | .hbm, ⟨87, _⟩ => ⟨S1x40, .f32⟩
  | .hbm, ⟨88, _⟩ => ⟨S100000x40, .f32⟩
  | .hbm, ⟨89, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_c_9 : Ref sig .tc := ⟨.hbm, 72, rfl⟩
abbrev main_v51 : Ref sig .tc := ⟨.hbm, 73, rfl⟩
abbrev main_v52 : Ref sig .tc := ⟨.hbm, 74, rfl⟩
abbrev main_c_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run with its RESULT read, not only its arguments.

  The program is a chain of eight segments: three stretches of host operations (the symmetric normalisation of the
  graph), the first matrix-product region, two more host stretches (gather, scale, scatter-add, bias, relu), the second
  region, and a last host stretch. The buffer contents at each boundary are a fold from the launch memory, `W0` … `W8`;
  a host stretch applies its operations, a region replaces its result array by what its write-backs leave. Every weakly fair
  execution terminates with every unscoped buffer at the last boundary's contents `W8`; read at the result buffer this says
  the program returns `W8 … main_v65`, and read at an argument it says the argument is unchanged.
-/
import proofs.«108019_j58540404244885_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last boundary's
    contents and every argument as launched: the segments' launch, the last thread state (every unscoped buffer at `W8`)
    read against the final memory — at the result buffer as it stands, at each argument walked back to the launch. -/
theorem run_result : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Hand

end
-- ==== Proof.GraphStages.lean ====
/-
  The host side of the two-layer graph convolution, as pure functions of arrays.

  Both programs run the SAME host operations around their two matrix products; these definitions name that shared
  computation, one operation of the printed programs per operation here, so that each program's result can be stated as
  `propagate40 … (product₂ (relu (propagate16 … (product₁ x W₁) b₁)) W₂) b₂` with only the products differing in how
  they are computed.

  The graph: E = 3 200 000 directed edges (row 0 of the edge list the sources, row 1 the destinations) on N = 100 000
  nodes, then one self loop per node, E + N = 3 300 000 entries in all. The degree of a node counts the entries that end
  in it; an entry's weight is d(src)^(-1/2) · 1 · d(dst)^(-1/2) (with 0 in place of d^(-1/2) where the degree is not positive);
  a propagation step gathers the sources' rows of a feature matrix, scales each by its entry's weight, adds them into the
  destinations' rows, and adds a bias row. A node id is read with numpy's wrap-around: a negative id has N added.
-/
import proofs.«108019_j58540404244885_1_alg».proof.ReferenceIdeal
import proofs.«108019_j58540404244885_1_alg».proof.Proof.Gen.ReferenceIdeal

noncomputable section

namespace Cert.Graph

open Idealize.ShloMosaic Cert.ReferenceIdeal Cert.ReferenceIdeal.Gen

variable {F : FTy → Type} [FloatOps F]

/-- One row of the edge list followed by the self loops 0, 1, …, N-1: a list of E + N node ids. -/
def endpoints (row : Fin 2 → Nat) (hrow : S2x3200000.Slices row S1x3200000) (edges : IVec S2x3200000 32) : IVec S3300000 32 :=
  concatenate S3300000 0
    [⟨S3200000, shapeCast _ (extractStridedSlice S1x3200000 row edges hrow) shapeCasts_S1x3200000_S3200000⟩,
     ⟨S100000, iotaInDim S100000 32 0⟩] concatenates_S3200000_S100000_S3300000_d0

/-- The sources of the E + N entries. -/
def sources (edges : IVec S2x3200000 32) : IVec S3300000 32 := endpoints ![0, 0] slices_S2x3200000_S1x3200000_0_0 edges
/-- The destinations of the E + N entries. -/
def targets (edges : IVec S2x3200000 32) : IVec S3300000 32 := endpoints ![1, 0] slices_S2x3200000_S1x3200000_1_0 edges

/-- A list over the entries as a one-column matrix (the index operand of a gather or scatter). -/
def column {α : Type} (v : S3300000.Idx → α) : S3300000x1.Idx → α :=
  broadcastInDim S3300000x1 ![0] bcast_S3300000_S3300000x1_0 v

/-- Every entry's own weight, 1. -/
def unitWeights : FVec F S3300000 .f32 := broadcastInDim S3300000 ![] bcast_S_S3300000 (constant (F := F) S_ .f32 0x3F800000#32)
/-- One zero per node. -/
def nodeZeros : FVec F S100000 .f32 := broadcastInDim S100000 ![] bcast_S_S100000 (constant (F := F) S_ .f32 0x00000000#32)

/-- The degree of each node: the entries' unit weights added up at their destinations. -/
def degree (dst : IVec S3300000 32) : FVec F S100000 .f32 :=
  Host.scatterAdd scatter_S100000_S3300000x1_S3300000_n_0_0_1 nodeZeros (column dst) unitWeights

/-- d^(-1/2) per node, 0 where the degree is not positive. -/
def invSqrtDegree (dst : IVec S3300000 32) : FVec F S100000 .f32 :=
  select (cmpf .ogt (degree (F := F) dst) (nodeZeros (F := F))) (Host.rsqrt (degree (F := F) dst))
    (broadcastInDim S100000 ![] bcast_S_S100000 (id (constant (F := F) S_ .f32 0x00000000#32)))

/-- A node id read with wrap-around: a negative id has N = 100 000 added. -/
def wrapped (v : IVec S3300000 32) : IVec S3300000 32 :=
  select (cmpi .slt v (broadcastInDim S3300000 ![] bcast_S_S3300000 (constantI S_ 32 0#32)))
    (addi v (broadcastInDim S3300000 ![] bcast_S_S3300000 (constantI S_ 32 100000#32))) v

/-- The symmetric normalisation: entry (s → d) weighs d(s)^(-1/2) · 1 · d(d)^(-1/2). -/
def entryWeights (src dst : IVec S3300000 32) : FVec F S3300000 .f32 :=
  mulf (mulf (Host.gather gather_S100000_S3300000x1_S3300000_n_0_n_n_0_1_1 (invSqrtDegree (F := F) dst) (column (wrapped src))) unitWeights)
    (Host.gather gather_S100000_S3300000x1_S3300000_n_0_n_n_0_1_1 (invSqrtDegree (F := F) dst) (column (wrapped dst)))

/-- ONE PROPAGATION STEP at width 16: gather the sources' rows of `h`, scale each by its entry's weight, add them into
    the destinations' rows, add the bias row. -/
def propagate16 (src dst : IVec S3300000 32) (wt : FVec F S3300000 .f32) (h : FVec F S100000x16 .f32) (b : FVec F S16 .f32) :
    FVec F S100000x16 .f32 :=
  addf
    (Host.scatterAdd scatter_S100000x16_S3300000x1_S3300000x16_1_0_0_1
      (broadcastInDim S100000x16 ![] bcast_S_S100000x16 (constant (F := F) S_ .f32 0x00000000#32)) (column dst)
      (mulf (broadcastInDim S3300000x16 ![0, 1] bcast_S3300000x1_S3300000x16_0_1 (column wt))
        (Host.gather gather_S100000x16_S3300000x1_S3300000x16_1_0_n_n_0_1_116 h (column (wrapped src)))))
    (broadcastInDim S100000x16 ![0, 1] bcast_S1x16_S100000x16_0_1 (broadcastInDim S1x16 ![1] bcast_S16_S1x16_1 b))

/-- max(x, 0), entry by entry. -/
def relu16 (x : FVec F S100000x16 .f32) : FVec F S100000x16 .f32 :=
  maximumf x (broadcastInDim S100000x16 ![] bcast_S_S100000x16 (constant (F := F) S_ .f32 0x00000000#32))

/-- The same propagation step at width 40. -/
def propagate40 (src dst : IVec S3300000 32) (wt : FVec F S3300000 .f32) (h : FVec F S100000x40 .f32) (b : FVec F S40 .f32) :
    FVec F S100000x40 .f32 :=
  addf
    (Host.scatterAdd scatter_S100000x40_S3300000x1_S3300000x40_1_0_0_1
      (broadcastInDim S100000x40 ![] bcast_S_S100000x40 (constant (F := F) S_ .f32 0x00000000#32)) (column dst)
      (mulf (broadcastInDim S3300000x40 ![0, 1] bcast_S3300000x1_S3300000x40_0_1 (column wt))
        (Host.gather gather_S100000x40_S3300000x1_S3300000x40_1_0_n_n_0_1_140 h (column (wrapped src)))))
    (broadcastInDim S100000x40 ![0, 1] bcast_S1x40_S100000x40_0_1 (broadcastInDim S1x40 ![1] bcast_S40_S1x40_1 b))

/-- THE WHOLE NETWORK over two given matrix products: layer 1's product, propagated and rectified; layer 2's product of
    that, propagated. Both programs are this function; they differ in `product₁` and `product₂` only. -/
def network (product₁ : FVec F S100000x512 .f32 → FVec F S512x16 .f32 → FVec F S100000x16 .f32)
    (product₂ : FVec F S100000x16 .f32 → FVec F S16x40 .f32 → FVec F S100000x40 .f32)
    (x : FVec F S100000x512 .f32) (edges : IVec S2x3200000 32) (w₁ : FVec F S512x16 .f32) (b₁ : FVec F S16 .f32)
    (w₂ : FVec F S16x40 .f32) (b₂ : FVec F S40 .f32) : FVec F S100000x40 .f32 :=
  propagate40 (sources edges) (targets edges) (entryWeights (sources edges) (targets edges))
    (product₂ (relu16 (propagate16 (sources edges) (targets edges) (entryWeights (sources edges) (targets edges)) (product₁ x w₁) b₁)) w₂) b₂

end Cert.Graph

end
-- ==== Proof.KernelStretches.lean ====
/-
  The idealized kernel's host stretches, read: what each stretch of host operations leaves in the buffers the rest of the
  program reads, as a function of the buffer contents `X` it starts from.

  Before the first matrix product the program builds, from the edge list alone, the two endpoint lists and the entry
  weights; between the two products it propagates the first product over the graph, adds the bias and rectifies; after the
  second product it propagates that one and adds the second bias. Each statement below is the fold of the stretch's
  operations evaluated at one buffer.
-/
import proofs.«108019_j58540404244885_1_alg».proof.Proof.Gen.KernelIdeal.Launch
import proofs.«108019_j58540404244885_1_alg».proof.Proof.GraphStages
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F] (X : Valuation τ sig (Elt F))

/-! ## Before the first product: the graph's normalisation, from the edge list alone -/

/-- The sources of the E + N entries. -/
theorem prelude_sources :
    after hostOps0_2 (after hostOps0_1 (after hostOps0 X)) (Proc.devRef .tc main_v3) = Cert.Graph.sources (X (Proc.devRef .tc main_arg1)) := by
  after_results_simp
  rfl

/-- The destinations of the E + N entries. -/
theorem prelude_targets :
    after hostOps0_2 (after hostOps0_1 (after hostOps0 X)) (Proc.devRef .tc main_v6) = Cert.Graph.targets (X (Proc.devRef .tc main_arg1)) := by
  after_results_simp
  rfl

/-- The entries' weights d(src)^(-1/2) · d(dst)^(-1/2). -/
theorem prelude_weights :
    after hostOps0_2 (after hostOps0_1 (after hostOps0 X)) (Proc.devRef .tc main_v30)
      = Cert.Graph.entryWeights (F := F) (Cert.Graph.sources (X (Proc.devRef .tc main_arg1))) (Cert.Graph.targets (X (Proc.devRef .tc main_arg1))) := by
  after_results_simp
  rfl

/-! ## Between the products: propagate, add the bias, rectify -/

/-- The hidden features: the first product propagated over the graph, the first bias added, rectified. -/
theorem middle_hidden :
    after hostOps1_1 (after hostOps1 X) (Proc.devRef .tc main_v48)
      = Cert.Graph.relu16 (Cert.Graph.propagate16 (X (Proc.devRef .tc main_v3)) (X (Proc.devRef .tc main_v6)) (X (Proc.devRef .tc main_v30)) (X (Proc.devRef .tc main_v31)) (X (Proc.devRef .tc main_arg3))) := by
  after_results_simp
  rfl

/-! ## After the second product: propagate and add the bias -/

/-- The result: the second product propagated over the graph, the second bias added. -/
theorem tail_result :
    after hostOps2 X (Proc.devRef .tc main_v65)
      = Cert.Graph.propagate40 (X (Proc.devRef .tc main_v3)) (X (Proc.devRef .tc main_v6)) (X (Proc.devRef .tc main_v30)) (X (Proc.devRef .tc main_v49)) (X (Proc.devRef .tc main_arg5)) := by
  after_results_simp
  rfl

/-! ## What the stretches leave alone

No host operation writes an argument, and the graph's normalisation is computed once, before the first product: the later
stretches only read the endpoint lists and the entry weights. -/

theorem prelude_keeps_arg0 : after hostOps0_2 (after hostOps0_1 (after hostOps0 X)) (Proc.devRef .tc main_arg0) = X (Proc.devRef .tc main_arg0) := by
  after_results_simp <;> rfl
theorem prelude_keeps_arg2 : after hostOps0_2 (after hostOps0_1 (after hostOps0 X)) (Proc.devRef .tc main_arg2) = X (Proc.devRef .tc main_arg2) := by
  after_results_simp <;> rfl
theorem prelude_keeps_arg3 : after hostOps0_2 (after hostOps0_1 (after hostOps0 X)) (Proc.devRef .tc main_arg3) = X (Proc.devRef .tc main_arg3) := by
  after_results_simp <;> rfl
theorem prelude_keeps_arg4 : after hostOps0_2 (after hostOps0_1 (after hostOps0 X)) (Proc.devRef .tc main_arg4) = X (Proc.devRef .tc main_arg4) := by
  after_results_simp <;> rfl
theorem prelude_keeps_arg5 : after hostOps0_2 (after hostOps0_1 (after hostOps0 X)) (Proc.devRef .tc main_arg5) = X (Proc.devRef .tc main_arg5) := by
  after_results_simp <;> rfl

theorem middle_keeps_v3 : after hostOps1_1 (after hostOps1 X) (Proc.devRef .tc main_v3) = X (Proc.devRef .tc main_v3) := by
  after_results_simp <;> rfl
theorem middle_keeps_v6 : after hostOps1_1 (after hostOps1 X) (Proc.devRef .tc main_v6) = X (Proc.devRef .tc main_v6) := by
  after_results_simp <;> rfl
theorem middle_keeps_v30 : after hostOps1_1 (after hostOps1 X) (Proc.devRef .tc main_v30) = X (Proc.devRef .tc main_v30) := by
  after_results_simp <;> rfl
theorem middle_keeps_arg4 : after hostOps1_1 (after hostOps1 X) (Proc.devRef .tc main_arg4) = X (Proc.devRef .tc main_arg4) := by
  after_results_simp <;> rfl
theorem middle_keeps_arg5 : after hostOps1_1 (after hostOps1 X) (Proc.devRef .tc main_arg5) = X (Proc.devRef .tc main_arg5) := by
  after_results_simp <;> rfl

end Cert.KernelIdeal.Hand

end
-- ==== Proof.BlockProduct.lean ====
/-
  What ONE grid point of each of the two matrix-product kernels computes, element by element, over the extended reals.

  Each kernel body loads a block of rows of its left operand and the whole right operand, rounds both to bf16, and
  multiplies them into an accumulator that starts at zero. Over the extended reals a change of float format is the identity
  and the accumulator's zero is the real 0, so entry (p, q) of the block written back is the plain sum over the
  contracted axis, Σ_k x(p, k) · w(k, q): no rounding, no reordering, nothing that needs a finite input.
-/
import proofs.«108019_j58540404244885_1_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem
open Idealize.ShloMosaic.ValueIdx (ix2)

namespace Cert.KernelIdeal.Hand

open Cert.KernelIdeal Cert.KernelIdeal.Gen

/-- FIRST LAYER, one block of 2000 nodes: entry (p, q) of the block the body stores is the node's 512 features
    against column q of the 512×16 weights, Σ_k x(p, k) · w(k, q). -/
theorem featureBlock_apply (x : Vec Ideal S2000x512 .f32) (w : Vec Ideal S512x16 .f32) (p : Fin 2000) (q : Fin 16) :
    k0_pay1 (F := Ideal) x w (ix2 p q) = ∑ k : Fin 512, x (ix2 p k) * w (ix2 k q) := by
  unfold k0_pay1
  refine (Ideal.matmul_constant_zero_apply dot_S2000x512_S512x16_S2000x16_1_0_0_1_n_n none _ _ (ix2 p q)).trans ?_
  rw [← Equiv.sum_comp (ValueIdx.contrEquiv1 dot_S2000x512_S512x16_S2000x16_1_0_0_1_n_n 512 rfl rfl).symm]
  refine Finset.sum_congr rfl fun k _ => ?_
  have hk := ValueIdx.contrEquiv1_symm_val dot_S2000x512_S512x16_S2000x16_1_0_0_1_n_n 512 rfl rfl k
  have el : dot_S2000x512_S512x16_S2000x16_1_0_0_1_n_n.lhsIdx (ix2 p q) ((ValueIdx.contrEquiv1 dot_S2000x512_S512x16_S2000x16_1_0_0_1_n_n 512 rfl rfl).symm k) = ix2 p k :=
    funext fun a => Fin.ext (by
      match a with
      | ⟨0, _⟩ =>
        show (dot_S2000x512_S512x16_S2000x16_1_0_0_1_n_n.lhsIdx (ix2 p q) _ 0).val = p.val
        unfold DotDims.lhsIdx
        rw [dif_neg (show ¬(0 : Fin S2000x512.rank) ∈ dot_S2000x512_S512x16_S2000x16_1_0_0_1_n_n.lhsBatch by decide),
          dif_pos (show (0 : Fin S2000x512.rank) ∈ dot_S2000x512_S512x16_S2000x16_1_0_0_1_n_n.lhsNonContracting by decide)]
        rfl
      | ⟨1, _⟩ => exact (dot_S2000x512_S512x16_S2000x16_1_0_0_1_n_n.lhsIdx_val_of_single rfl _ _).trans hk)
  have er : dot_S2000x512_S512x16_S2000x16_1_0_0_1_n_n.rhsIdx (ix2 p q) ((ValueIdx.contrEquiv1 dot_S2000x512_S512x16_S2000x16_1_0_0_1_n_n 512 rfl rfl).symm k) = ix2 k q :=
    funext fun a => Fin.ext (by
      match a with
      | ⟨0, _⟩ => exact (dot_S2000x512_S512x16_S2000x16_1_0_0_1_n_n.rhsIdx_val_of_single rfl _ _).trans hk
      | ⟨1, _⟩ =>
        show (dot_S2000x512_S512x16_S2000x16_1_0_0_1_n_n.rhsIdx (ix2 p q) _ 1).val = q.val
        unfold DotDims.rhsIdx
        rw [dif_neg (show ¬(1 : Fin S512x16.rank) ∈ dot_S2000x512_S512x16_S2000x16_1_0_0_1_n_n.rhsBatch by decide),
          dif_pos (show (1 : Fin S512x16.rank) ∈ dot_S2000x512_S512x16_S2000x16_1_0_0_1_n_n.rhsNonContracting by decide)]
        rfl)
  rw [el, er]
  rfl

/-- SECOND LAYER, one block of 4000 nodes: entry (p, q) of the block the body stores is the node's 16 hidden
    features against column q of the 16×40 weights, Σ_k h(p, k) · w(k, q) (the body's reshape of the block to its own
    shape changes nothing). -/
theorem hiddenBlock_apply (x : Vec Ideal S4000x16 .f32) (w : Vec Ideal S16x40 .f32) (p : Fin 4000) (q : Fin 40) :
    k1_pay1 (F := Ideal) x w (ix2 p q) = ∑ k : Fin 16, x (ix2 p k) * w (ix2 k q) := by
  unfold k1_pay1
  refine (Ideal.matmul_constant_zero_apply dot_S4000x16_S16x40_S4000x40_1_0_0_1_n_n none _ _ (ix2 p q)).trans ?_
  rw [← Equiv.sum_comp (ValueIdx.contrEquiv1 dot_S4000x16_S16x40_S4000x40_1_0_0_1_n_n 16 rfl rfl).symm]
  refine Finset.sum_congr rfl fun k _ => ?_
  have hk := ValueIdx.contrEquiv1_symm_val dot_S4000x16_S16x40_S4000x40_1_0_0_1_n_n 16 rfl rfl k
  have el : dot_S4000x16_S16x40_S4000x40_1_0_0_1_n_n.lhsIdx (ix2 p q) ((ValueIdx.contrEquiv1 dot_S4000x16_S16x40_S4000x40_1_0_0_1_n_n 16 rfl rfl).symm k) = ix2 p k :=
    funext fun a => Fin.ext (by
      match a with
      | ⟨0, _⟩ =>
        show (dot_S4000x16_S16x40_S4000x40_1_0_0_1_n_n.lhsIdx (ix2 p q) _ 0).val = p.val
        unfold DotDims.lhsIdx
        rw [dif_neg (show ¬(0 : Fin S4000x16.rank) ∈ dot_S4000x16_S16x40_S4000x40_1_0_0_1_n_n.lhsBatch by decide),
          dif_pos (show (0 : Fin S4000x16.rank) ∈ dot_S4000x16_S16x40_S4000x40_1_0_0_1_n_n.lhsNonContracting by decide)]
        rfl
      | ⟨1, _⟩ => exact (dot_S4000x16_S16x40_S4000x40_1_0_0_1_n_n.lhsIdx_val_of_single rfl _ _).trans hk)
  have er : dot_S4000x16_S16x40_S4000x40_1_0_0_1_n_n.rhsIdx (ix2 p q) ((ValueIdx.contrEquiv1 dot_S4000x16_S16x40_S4000x40_1_0_0_1_n_n 16 rfl rfl).symm k) = ix2 k q :=
    funext fun a => Fin.ext (by
      match a with
      | ⟨0, _⟩ => exact (dot_S4000x16_S16x40_S4000x40_1_0_0_1_n_n.rhsIdx_val_of_single rfl _ _).trans hk
      | ⟨1, _⟩ =>
        show (dot_S4000x16_S16x40_S4000x40_1_0_0_1_n_n.rhsIdx (ix2 p q) _ 1).val = q.val
        unfold DotDims.rhsIdx
        rw [dif_neg (show ¬(1 : Fin S16x40.rank) ∈ dot_S4000x16_S16x40_S4000x40_1_0_0_1_n_n.rhsBatch by decide),
          dif_pos (show (1 : Fin S16x40.rank) ∈ dot_S4000x16_S16x40_S4000x40_1_0_0_1_n_n.rhsNonContracting by decide)]
        rfl)
  rw [el, er]
  rw [shapeCast_self]
  rfl

end Cert.KernelIdeal.Hand

end
-- ==== Proof.ProductLaw.lean ====
/-
  The two matrix products of the network, as plain sums over the extended reals.

  `featureProduct x w` is the 100000×16 matrix whose entry (r, q) is Σ_k x(r, k) · w(k, q) over the 512 input features;
  `hiddenProduct h w` the 100000×40 matrix Σ_k h(r, k) · w(k, q) over the 16 hidden features. The host's `dot_general`
  (contracting axis 1 of the left operand with axis 0 of the right, no batch axes) IS that sum at the ideal instance.
-/
import proofs.«108019_j58540404244885_1_alg».proof.Proof.GraphStages
import Idealize.ShloMosaic.Lib.ValueIdx
import Idealize.ShloMosaic.PureOps.Ideal.Laws

noncomputable section

namespace Cert.Graph

open Idealize.ShloMosaic Cert.ReferenceIdeal Cert.ReferenceIdeal.Gen
open Idealize.ShloMosaic.ValueIdx (ix2 eq_ix2 idx2_lt0 idx2_lt1)

/-- Layer 1's product: node r's 512 features against column q of the weights. -/
def featureProduct (x : FVec Ideal S100000x512 .f32) (w : FVec Ideal S512x16 .f32) : FVec Ideal S100000x16 .f32 :=
  fun i => ∑ k : Fin 512, x (ix2 ⟨(i 0).val, idx2_lt0 i⟩ k) * w (ix2 k ⟨(i 1).val, idx2_lt1 i⟩)

/-- Layer 2's product: node r's 16 hidden features against column q of the weights. -/
def hiddenProduct (h : FVec Ideal S100000x16 .f32) (w : FVec Ideal S16x40 .f32) : FVec Ideal S100000x40 .f32 :=
  fun i => ∑ k : Fin 16, h (ix2 ⟨(i 0).val, idx2_lt0 i⟩ k) * w (ix2 k ⟨(i 1).val, idx2_lt1 i⟩)

/-- The host's first `dot_general` is `featureProduct`: its element is the sum over the one contracted axis. -/
theorem hostFeatureProduct (a : FVec Ideal S100000x512 .f32) (w : FVec Ideal S512x16 .f32) :
    Host.dotGeneral (F := Ideal) dot_S100000x512_S512x16_S100000x16_1_0_0_1_n_n none a w = featureProduct a w := by
  funext i
  obtain ⟨r, q, rfl⟩ : ∃ (r : Fin 100000) (q : Fin 16), i = ix2 r q := ⟨i 0, i 1, eq_ix2 i⟩
  show Host.dotGeneral (F := Ideal) dot_S100000x512_S512x16_S100000x16_1_0_0_1_n_n none a w (ix2 r q) = ∑ k : Fin 512, a (ix2 r k) * w (ix2 k q)
  simp only [Host.dotGeneral]
  rw [Ideal.dotGeneral_apply, ← Equiv.sum_comp (ValueIdx.contrEquiv1 dot_S100000x512_S512x16_S100000x16_1_0_0_1_n_n 512 rfl rfl).symm]
  refine Finset.sum_congr rfl fun k _ => ?_
  have hk := ValueIdx.contrEquiv1_symm_val dot_S100000x512_S512x16_S100000x16_1_0_0_1_n_n 512 rfl rfl k
  have el : dot_S100000x512_S512x16_S100000x16_1_0_0_1_n_n.lhsIdx (ix2 r q) ((ValueIdx.contrEquiv1 dot_S100000x512_S512x16_S100000x16_1_0_0_1_n_n 512 rfl rfl).symm k) = ix2 r k :=
    funext fun x => Fin.ext (by
      match x with
      | ⟨0, _⟩ =>
        show (dot_S100000x512_S512x16_S100000x16_1_0_0_1_n_n.lhsIdx (ix2 r q) _ 0).val = r.val
        unfold DotDims.lhsIdx
        rw [dif_neg (show ¬(0 : Fin S100000x512.rank) ∈ dot_S100000x512_S512x16_S100000x16_1_0_0_1_n_n.lhsBatch by decide),
          dif_pos (show (0 : Fin S100000x512.rank) ∈ dot_S100000x512_S512x16_S100000x16_1_0_0_1_n_n.lhsNonContracting by decide)]
        rfl
      | ⟨1, _⟩ => exact (dot_S100000x512_S512x16_S100000x16_1_0_0_1_n_n.lhsIdx_val_of_single rfl _ _).trans hk)
  have er : dot_S100000x512_S512x16_S100000x16_1_0_0_1_n_n.rhsIdx (ix2 r q) ((ValueIdx.contrEquiv1 dot_S100000x512_S512x16_S100000x16_1_0_0_1_n_n 512 rfl rfl).symm k) = ix2 k q :=
    funext fun x => Fin.ext (by
      match x with
      | ⟨0, _⟩ => exact (dot_S100000x512_S512x16_S100000x16_1_0_0_1_n_n.rhsIdx_val_of_single rfl _ _).trans hk
      | ⟨1, _⟩ =>
        show (dot_S100000x512_S512x16_S100000x16_1_0_0_1_n_n.rhsIdx (ix2 r q) _ 1).val = q.val
        unfold DotDims.rhsIdx
        rw [dif_neg (show ¬(1 : Fin S512x16.rank) ∈ dot_S100000x512_S512x16_S100000x16_1_0_0_1_n_n.rhsBatch by decide),
          dif_pos (show (1 : Fin S512x16.rank) ∈ dot_S100000x512_S512x16_S100000x16_1_0_0_1_n_n.rhsNonContracting by decide)]
        rfl)
  rw [el, er]

/-- The host's second `dot_general` is `hiddenProduct`. -/
theorem hostHiddenProduct (a : FVec Ideal S100000x16 .f32) (w : FVec Ideal S16x40 .f32) :
    Host.dotGeneral (F := Ideal) dot_S100000x16_S16x40_S100000x40_1_0_0_1_n_n none a w = hiddenProduct a w := by
  funext i
  obtain ⟨r, q, rfl⟩ : ∃ (r : Fin 100000) (q : Fin 40), i = ix2 r q := ⟨i 0, i 1, eq_ix2 i⟩
  show Host.dotGeneral (F := Ideal) dot_S100000x16_S16x40_S100000x40_1_0_0_1_n_n none a w (ix2 r q) = ∑ k : Fin 16, a (ix2 r k) * w (ix2 k q)
  simp only [Host.dotGeneral]
  rw [Ideal.dotGeneral_apply, ← Equiv.sum_comp (ValueIdx.contrEquiv1 dot_S100000x16_S16x40_S100000x40_1_0_0_1_n_n 16 rfl rfl).symm]
  refine Finset.sum_congr rfl fun k _ => ?_
  have hk := ValueIdx.contrEquiv1_symm_val dot_S100000x16_S16x40_S100000x40_1_0_0_1_n_n 16 rfl rfl k
  have el : dot_S100000x16_S16x40_S100000x40_1_0_0_1_n_n.lhsIdx (ix2 r q) ((ValueIdx.contrEquiv1 dot_S100000x16_S16x40_S100000x40_1_0_0_1_n_n 16 rfl rfl).symm k) = ix2 r k :=
    funext fun x => Fin.ext (by
      match x with
      | ⟨0, _⟩ =>
        show (dot_S100000x16_S16x40_S100000x40_1_0_0_1_n_n.lhsIdx (ix2 r q) _ 0).val = r.val
        unfold DotDims.lhsIdx
        rw [dif_neg (show ¬(0 : Fin S100000x16.rank) ∈ dot_S100000x16_S16x40_S100000x40_1_0_0_1_n_n.lhsBatch by decide),
          dif_pos (show (0 : Fin S100000x16.rank) ∈ dot_S100000x16_S16x40_S100000x40_1_0_0_1_n_n.lhsNonContracting by decide)]
        rfl
      | ⟨1, _⟩ => exact (dot_S100000x16_S16x40_S100000x40_1_0_0_1_n_n.lhsIdx_val_of_single rfl _ _).trans hk)
  have er : dot_S100000x16_S16x40_S100000x40_1_0_0_1_n_n.rhsIdx (ix2 r q) ((ValueIdx.contrEquiv1 dot_S100000x16_S16x40_S100000x40_1_0_0_1_n_n 16 rfl rfl).symm k) = ix2 k q :=
    funext fun x => Fin.ext (by
      match x with
      | ⟨0, _⟩ => exact (dot_S100000x16_S16x40_S100000x40_1_0_0_1_n_n.rhsIdx_val_of_single rfl _ _).trans hk
      | ⟨1, _⟩ =>
        show (dot_S100000x16_S16x40_S100000x40_1_0_0_1_n_n.rhsIdx (ix2 r q) _ 1).val = q.val
        unfold DotDims.rhsIdx
        rw [dif_neg (show ¬(1 : Fin S16x40.rank) ∈ dot_S100000x16_S16x40_S100000x40_1_0_0_1_n_n.rhsBatch by decide),
          dif_pos (show (1 : Fin S16x40.rank) ∈ dot_S100000x16_S16x40_S100000x40_1_0_0_1_n_n.rhsNonContracting by decide)]
        rfl)
  rw [el, er]

end Cert.Graph

end
-- ==== Proof.RegionProducts.lean ====
/-
  What each of the two kernel regions leaves in its result array: the WHOLE matrix product of the two arrays it is entered with.

  A region runs its body once per block of rows: point `t` fetches rows block `t` of the left array and the whole right
  array, the body multiplies them (BlockProduct: entry (p, q) is Σ_k left(p, k) · right(k, q)), and the block is written back
  as rows block `t` of the result. Row `t · rows + p` of the result therefore holds that row's sum, which is the same row of the whole
  product; the blocks tile the rows, so the array ends at the product. Stated for ANY buffer contents `V` at the region's entry:
  the first region is entered with the arguments `x` and `W₁`, the second with the hidden features the host computed and `W₂`.
-/
import proofs.«108019_j58540404244885_1_alg».proof.Proof.Gen.KernelIdeal.Frame
import proofs.«108019_j58540404244885_1_alg».proof.Proof.BlockProduct
import proofs.«108019_j58540404244885_1_alg».proof.Proof.ProductLaw
import Idealize.ShloMosaic.Lib.Pipeline.Value

set_option maxRecDepth 16384

noncomputable section

open Idealize.ShloMosaic Idealize.ShloMosaic.TcCoe Idealize.SL.Sem
open Idealize.ShloMosaic.Pipeline (Dat)
open Idealize.ShloMosaic.ValueIdx (ix2 eq_ix2 idx2_lt0 idx2_lt1)

namespace Cert.KernelIdeal.Hand

open Cert.KernelIdeal Cert.KernelIdeal.Gen

-- the buffer contents the region is entered with
variable (V : (c : Dev nD) → (b : Ref sig .tc) → Buf (Elt Ideal) ((c : Thread nD τ).loc b))

theorem zeroOffsets : (![0, 0] : Fin 2 → Nat) = fun _ => 0 := funext fun a => by fin_cases a <;> rfl

/-! ## Region 0: the node features against the first weights -/

/-- The printed index maps of region 0, decided over its 50 grid points: point `t` reads rows block `t` of the left operand,
    the whole right operand, and writes rows block `t` of the result. -/
theorem blockIndices0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is rows block `t` of the product of the two arrays the region is entered with: entry (p, q)
    of the block is Σ_k over row t·2000 + p of the left array and column q of the right one. -/
theorem flushed0_eq (c : Dev nD) (t : Fin cfg0.N) :
    (dat0 V c).flushed 2 t = ((cfg0.win 2).blk t).view.read (Elt Ideal) (Cert.Graph.featureProduct (V c main_arg0) (V c main_arg2)) := by
  show (cfg0.win 2).cut (grid0.coords t) ((dat0 V c).after 2 t) = _
  rw [after0_2]
  unfold out0_2
  rw [View.canon_unit_zero zeroOffsets]
  simp only [View.ld_unit_zero (S := S2000x512) zeroOffsets, View.ld_unit_zero (S := S512x16) zeroOffsets]
  obtain ⟨e0, e1, e2, e3, e4, e5⟩ := blockIndices0 t
  funext j
  obtain ⟨p, q, rfl⟩ : ∃ (p : Fin 2000) (q : Fin 16), j = ix2 p q := ⟨j 0, j 1, eq_ix2 j⟩
  show k0_pay1 (F := Ideal) (iblk0 V c 0 t) (iblk0 V c 1 t) (ix2 p q)
    = Cert.Graph.featureProduct (V c main_arg0) (V c main_arg2) (((cfg0.win 2).blk t).view.emb (ix2 p q))
  refine (featureBlock_apply (iblk0 V c 0 t) (iblk0 V c 1 t) p q).trans ?_
  unfold Cert.Graph.featureProduct
  refine Finset.sum_congr rfl fun k _ => ?_
  have hl : iblk0 V c 0 t (ix2 p k) = V c main_arg0 (ix2 ⟨((((cfg0.win 2).blk t).view.emb (ix2 p q)) 0).val, idx2_lt0 _⟩ k) := by
    show V c main_arg0 (((cfg0.win 0).blk t).view.emb (ix2 p k)) = V c main_arg0 _
    congr 1
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 512 + 1 * k.val = k.val; omega
  have hr : iblk0 V c 1 t (ix2 k q) = V c main_arg2 (ix2 k ⟨((((cfg0.win 2).blk t).view.emb (ix2 p q)) 1).val, idx2_lt1 _⟩) := by
    show V c main_arg2 (((cfg0.win 1).blk t).view.emb (ix2 k q)) = V c main_arg2 _
    congr 1
    funext a; apply Fin.ext
    match a with
    | ⟨0, _⟩ => show win0_1.index t (0 : Fin 2) * 512 + 1 * k.val = k.val; omega
    | ⟨1, _⟩ => show win0_1.index t (1 : Fin 2) * 16 + 1 * q.val = win0_2.index t (1 : Fin 2) * 16 + 1 * q.val; omega
  rw [hl, hr]

/-- A row of the result lies in point `t`'s block iff its coordinates are in the block's ranges. -/
theorem mem_block0 (t : Fin cfg0.N) (i : S100000x16.Idx) :
    i ∈ ((cfg0.win 2).blk t).view.set ↔ ∀ a : Fin 2, win0_2.index t a * S2000x16.size a ≤ (i a).val ∧ (i a).val < win0_2.index t a * S2000x16.size a + S2000x16.size a := by
  show i ∈ ((View.whole main_v31).slice (win0_2.rect t)).set ↔ _
  rw [View.set_slice_whole, Rect.mem_set_unit]
  exact Iff.rfl

/-- THE REGION'S RESULT: the 50 blocks of 2000 rows tile the 100000 rows (row r is in block r / 2000), so after the
    region the result array holds the whole product of the arrays it was entered with. -/
theorem region0_product (c : Dev nD) :
    (dat0 V c).arrAt 2 cfg0.N = Cert.Graph.featureProduct (V c main_arg0) (V c main_arg2) :=
  (dat0 V c).arrAt_eq_of_cover 2 (Cert.Graph.featureProduct (V c main_arg0) (V c main_arg2)) (fun t _ => flushed0_eq V c t) fun i => by
    have hi0 : (i 0).val < 100000 := idx2_lt0 i
    have hi1 : (i 1).val < 16 := idx2_lt1 i
    have hN : cfg0.N = 50 := N_0
    have ht : (i 0).val / 2000 < cfg0.N := by rw [hN]; omega
    obtain ⟨e0, e1, e2, e3, e4, e5⟩ := blockIndices0 ⟨(i 0).val / 2000, ht⟩
    refine ⟨⟨(i 0).val / 2000, ht⟩, flush0_2 _, ?_⟩
    rw [mem_block0]
    intro a
    match a with
    | ⟨0, _⟩ =>
      show win0_2.index ⟨(i 0).val / 2000, ht⟩ (0 : Fin 2) * 2000 ≤ (i 0).val
        ∧ (i 0).val < win0_2.index ⟨(i 0).val / 2000, ht⟩ (0 : Fin 2) * 2000 + 2000
      rw [e4]; show (i 0).val / 2000 * 2000 ≤ (i 0).val ∧ (i 0).val < (i 0).val / 2000 * 2000 + 2000; omega
    | ⟨1, _⟩ =>
      show win0_2.index ⟨(i 0).val / 2000, ht⟩ (1 : Fin 2) * 16 ≤ (i 1).val
        ∧ (i 1).val < win0_2.index ⟨(i 0).val / 2000, ht⟩ (1 : Fin 2) * 16 + 16
      rw [e5]; omega

/-! ## Region 1: the hidden features against the second weights -/

/-- The printed index maps of region 1, decided over its 25 grid points: point `t` reads rows block `t` of the left operand,
    the whole right operand, and writes rows block `t` of the result. -/
theorem blockIndices1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is rows block `t` of the product of the two arrays the region is entered with: entry (p, q)
    of the block is Σ_k over row t·4000 + p of the left array and column q of the right one. -/
theorem flushed1_eq (c : Dev nD) (t : Fin cfg1.N) :
    (dat1 V c).flushed 2 t = ((cfg1.win 2).blk t).view.read (Elt Ideal) (Cert.Graph.hiddenProduct (V c main_v48) (V c main_arg4)) := by
  show (cfg1.win 2).cut (grid1.coords t) ((dat1 V c).after 2 t) = _
  rw [after1_2]
  unfold out1_2
  rw [View.canon_unit_zero zeroOffsets]
  simp only [View.ld_unit_zero (S := S4000x16) zeroOffsets, View.ld_unit_zero (S := S16x40) zeroOffsets]
  obtain ⟨e0, e1, e2, e3, e4, e5⟩ := blockIndices1 t
  funext j
  obtain ⟨p, q, rfl⟩ : ∃ (p : Fin 4000) (q : Fin 40), j = ix2 p q := ⟨j 0, j 1, eq_ix2 j⟩
  show k1_pay1 (F := Ideal) (iblk1 V c 0 t) (iblk1 V c 1 t) (ix2 p q)
    = Cert.Graph.hiddenProduct (V c main_v48) (V c main_arg4) (((cfg1.win 2).blk t).view.emb (ix2 p q))
  refine (hiddenBlock_apply (iblk1 V c 0 t) (iblk1 V c 1 t) p q).trans ?_
  unfold Cert.Graph.hiddenProduct
  refine Finset.sum_congr rfl fun k _ => ?_
  have hl : iblk1 V c 0 t (ix2 p k) = V c main_v48 (ix2 ⟨((((cfg1.win 2).blk t).view.emb (ix2 p q)) 0).val, idx2_lt0 _⟩ k) := by
    show V c main_v48 (((cfg1.win 0).blk t).view.emb (ix2 p k)) = V c main_v48 _
    congr 1
    funext a; apply Fin.ext
    match a with
    | ⟨0, _⟩ => show win1_0.index t (0 : Fin 2) * 4000 + 1 * p.val = win1_2.index t (0 : Fin 2) * 4000 + 1 * p.val; omega
    | ⟨1, _⟩ => show win1_0.index t (1 : Fin 2) * 16 + 1 * k.val = k.val; omega
  have hr : iblk1 V c 1 t (ix2 k q) = V c main_arg4 (ix2 k ⟨((((cfg1.win 2).blk t).view.emb (ix2 p q)) 1).val, idx2_lt1 _⟩) := by
    show V c main_arg4 (((cfg1.win 1).blk t).view.emb (ix2 k q)) = V c main_arg4 _
    congr 1
    funext a; apply Fin.ext
    match a with
    | ⟨0, _⟩ => show win1_1.index t (0 : Fin 2) * 16 + 1 * k.val = k.val; omega
    | ⟨1, _⟩ => show win1_1.index t (1 : Fin 2) * 40 + 1 * q.val = win1_2.index t (1 : Fin 2) * 40 + 1 * q.val; omega
  rw [hl, hr]

/-- A row of the result lies in point `t`'s block iff its coordinates are in the block's ranges. -/
theorem mem_block1 (t : Fin cfg1.N) (i : S100000x40.Idx) :
    i ∈ ((cfg1.win 2).blk t).view.set ↔ ∀ a : Fin 2, win1_2.index t a * S4000x40.size a ≤ (i a).val ∧ (i a).val < win1_2.index t a * S4000x40.size a + S4000x40.size a := by
  show i ∈ ((View.whole main_v49).slice (win1_2.rect t)).set ↔ _
  rw [View.set_slice_whole, Rect.mem_set_unit]
  exact Iff.rfl

/-- THE REGION'S RESULT: the 25 blocks of 4000 rows tile the 100000 rows (row r is in block r / 4000), so after the
    region the result array holds the whole product of the arrays it was entered with. -/
theorem region1_product (c : Dev nD) :
    (dat1 V c).arrAt 2 cfg1.N = Cert.Graph.hiddenProduct (V c main_v48) (V c main_arg4) :=
  (dat1 V c).arrAt_eq_of_cover 2 (Cert.Graph.hiddenProduct (V c main_v48) (V c main_arg4)) (fun t _ => flushed1_eq V c t) fun i => by
    have hi0 : (i 0).val < 100000 := idx2_lt0 i
    have hi1 : (i 1).val < 40 := idx2_lt1 i
    have hN : cfg1.N = 25 := N_1
    have ht : (i 0).val / 4000 < cfg1.N := by rw [hN]; omega
    obtain ⟨e0, e1, e2, e3, e4, e5⟩ := blockIndices1 ⟨(i 0).val / 4000, ht⟩
    refine ⟨⟨(i 0).val / 4000, ht⟩, flush1_2 _, ?_⟩
    rw [mem_block1]
    intro a
    match a with
    | ⟨0, _⟩ =>
      show win1_2.index ⟨(i 0).val / 4000, ht⟩ (0 : Fin 2) * 4000 ≤ (i 0).val
        ∧ (i 0).val < win1_2.index ⟨(i 0).val / 4000, ht⟩ (0 : Fin 2) * 4000 + 4000
      rw [e4]; show (i 0).val / 4000 * 4000 ≤ (i 0).val ∧ (i 0).val < (i 0).val / 4000 * 4000 + 4000; omega
    | ⟨1, _⟩ =>
      show win1_2.index ⟨(i 0).val / 4000, ht⟩ (1 : Fin 2) * 40 ≤ (i 1).val
        ∧ (i 1).val < win1_2.index ⟨(i 0).val / 4000, ht⟩ (1 : Fin 2) * 40 + 40
      rw [e5]; omega

end Cert.KernelIdeal.Hand

end
-- ==== Proof.KernelValue.lean ====
/-
  The idealized kernel's result, as the network function of its arguments.

  The buffer contents at the program's eight boundaries are a fold from the launch memory. Read backwards from the result buffer:
  the last stretch propagates the second region's result; that result is the product of the hidden features and `W₂`
  (RegionProducts); the hidden features are the first region's result propagated, biased and rectified; the first region's
  result is the product of `x` and `W₁`; and the endpoint lists and the entry weights every propagation uses were computed
  once, before the first region, from the edge list. No later stretch or region writes them, nor an argument.
-/
import proofs.«108019_j58540404244885_1_alg».proof.Proof.Gen.KernelIdeal.Frame
import proofs.«108019_j58540404244885_1_alg».proof.Proof.KernelStretches
import proofs.«108019_j58540404244885_1_alg».proof.Proof.RegionProducts

set_option maxRecDepth 16384

noncomputable section

open Idealize.ShloMosaic Idealize.ShloMosaic.TcCoe Idealize.SL.Sem

namespace Cert.KernelIdeal.Hand

open Cert.KernelIdeal Cert.KernelIdeal.Gen

variable (m : (ℓ : Loc nD τ sig) → Buf (Elt Ideal) ℓ) (ρ : Dev nD → PrngReg) (c : Dev nD)

/-! ## At the first region's entry (`W3`): the normalisation, and the arguments as launched -/

theorem sources_at3 : W3 m ρ c (Proc.devRef .tc main_v3) = Cert.Graph.sources (m ((c : Thread nD τ).loc main_arg1)) := prelude_sources (W0 m ρ c)
theorem targets_at3 : W3 m ρ c (Proc.devRef .tc main_v6) = Cert.Graph.targets (m ((c : Thread nD τ).loc main_arg1)) := prelude_targets (W0 m ρ c)
theorem weights_at3 : W3 m ρ c (Proc.devRef .tc main_v30)
    = Cert.Graph.entryWeights (F := Ideal) (Cert.Graph.sources (m ((c : Thread nD τ).loc main_arg1))) (Cert.Graph.targets (m ((c : Thread nD τ).loc main_arg1))) :=
  prelude_weights (W0 m ρ c)
theorem arg0_at3 : W3 m ρ c (Proc.devRef .tc main_arg0) = (m ((c : Thread nD τ).loc main_arg0)) := prelude_keeps_arg0 (W0 m ρ c)
theorem arg2_at3 : W3 m ρ c (Proc.devRef .tc main_arg2) = (m ((c : Thread nD τ).loc main_arg2)) := prelude_keeps_arg2 (W0 m ρ c)
theorem arg3_at3 : W3 m ρ c (Proc.devRef .tc main_arg3) = (m ((c : Thread nD τ).loc main_arg3)) := prelude_keeps_arg3 (W0 m ρ c)
theorem arg4_at3 : W3 m ρ c (Proc.devRef .tc main_arg4) = (m ((c : Thread nD τ).loc main_arg4)) := prelude_keeps_arg4 (W0 m ρ c)
theorem arg5_at3 : W3 m ρ c (Proc.devRef .tc main_arg5) = (m ((c : Thread nD τ).loc main_arg5)) := prelude_keeps_arg5 (W0 m ρ c)

/-! ## After the first region (`W4`): its result is the first product; everything else as entered -/

theorem product_at4 : W4 m ρ c (Proc.devRef .tc main_v31) = Cert.Graph.featureProduct (m ((c : Thread nD τ).loc main_arg0)) (m ((c : Thread nD τ).loc main_arg2)) := by
  refine ((W4_arr m ρ c 2).trans (region0_product (V3 m ρ) c)).trans ?_
  show Cert.Graph.featureProduct (W3 m ρ c (Proc.devRef .tc main_arg0)) (W3 m ρ c (Proc.devRef .tc main_arg2)) = _
  rw [arg0_at3, arg2_at3]
theorem v3_at4 : W4 m ρ c (Proc.devRef .tc main_v3) = W3 m ρ c (Proc.devRef .tc main_v3) := W4_of_ne m ρ c main_v3 (by decide)
theorem v6_at4 : W4 m ρ c (Proc.devRef .tc main_v6) = W3 m ρ c (Proc.devRef .tc main_v6) := W4_of_ne m ρ c main_v6 (by decide)
theorem v30_at4 : W4 m ρ c (Proc.devRef .tc main_v30) = W3 m ρ c (Proc.devRef .tc main_v30) := W4_of_ne m ρ c main_v30 (by decide)
theorem arg3_at4 : W4 m ρ c (Proc.devRef .tc main_arg3) = W3 m ρ c (Proc.devRef .tc main_arg3) := W4_of_ne m ρ c main_arg3 (by decide)
theorem arg4_at4 : W4 m ρ c (Proc.devRef .tc main_arg4) = W3 m ρ c (Proc.devRef .tc main_arg4) := W4_of_ne m ρ c main_arg4 (by decide)
theorem arg5_at4 : W4 m ρ c (Proc.devRef .tc main_arg5) = W3 m ρ c (Proc.devRef .tc main_arg5) := W4_of_ne m ρ c main_arg5 (by decide)

/-! ## At the second region's entry (`W6`): the hidden features -/

/-- The hidden features: the first product propagated over the graph, biased, rectified. -/
def hidden : FVec Ideal S100000x16 .f32 :=
  Cert.Graph.relu16 (Cert.Graph.propagate16 (Cert.Graph.sources (m ((c : Thread nD τ).loc main_arg1))) (Cert.Graph.targets (m ((c : Thread nD τ).loc main_arg1)))
    (Cert.Graph.entryWeights (Cert.Graph.sources (m ((c : Thread nD τ).loc main_arg1))) (Cert.Graph.targets (m ((c : Thread nD τ).loc main_arg1))))
    (Cert.Graph.featureProduct (m ((c : Thread nD τ).loc main_arg0)) (m ((c : Thread nD τ).loc main_arg2))) (m ((c : Thread nD τ).loc main_arg3)))

theorem hidden_at6 : W6 m ρ c (Proc.devRef .tc main_v48) = hidden m c := by
  refine (middle_hidden (W4 m ρ c)).trans ?_
  rw [v3_at4, v6_at4, v30_at4, arg3_at4, product_at4, sources_at3, targets_at3, weights_at3, arg3_at3]
  rfl
theorem v3_at6 : W6 m ρ c (Proc.devRef .tc main_v3) = W4 m ρ c (Proc.devRef .tc main_v3) := middle_keeps_v3 (W4 m ρ c)
theorem v6_at6 : W6 m ρ c (Proc.devRef .tc main_v6) = W4 m ρ c (Proc.devRef .tc main_v6) := middle_keeps_v6 (W4 m ρ c)
theorem v30_at6 : W6 m ρ c (Proc.devRef .tc main_v30) = W4 m ρ c (Proc.devRef .tc main_v30) := middle_keeps_v30 (W4 m ρ c)
theorem arg4_at6 : W6 m ρ c (Proc.devRef .tc main_arg4) = W4 m ρ c (Proc.devRef .tc main_arg4) := middle_keeps_arg4 (W4 m ρ c)
theorem arg5_at6 : W6 m ρ c (Proc.devRef .tc main_arg5) = W4 m ρ c (Proc.devRef .tc main_arg5) := middle_keeps_arg5 (W4 m ρ c)

/-! ## After the second region (`W7`): its result is the second product -/

theorem product_at7 : W7 m ρ c (Proc.devRef .tc main_v49) = Cert.Graph.hiddenProduct (hidden m c) (m ((c : Thread nD τ).loc main_arg4)) := by
  refine ((W7_arr m ρ c 2).trans (region1_product (V6 m ρ) c)).trans ?_
  show Cert.Graph.hiddenProduct (W6 m ρ c (Proc.devRef .tc main_v48)) (W6 m ρ c (Proc.devRef .tc main_arg4)) = _
  rw [hidden_at6, arg4_at6, arg4_at4, arg4_at3]
theorem v3_at7 : W7 m ρ c (Proc.devRef .tc main_v3) = W6 m ρ c (Proc.devRef .tc main_v3) := W7_of_ne m ρ c main_v3 (by decide)
theorem v6_at7 : W7 m ρ c (Proc.devRef .tc main_v6) = W6 m ρ c (Proc.devRef .tc main_v6) := W7_of_ne m ρ c main_v6 (by decide)
theorem v30_at7 : W7 m ρ c (Proc.devRef .tc main_v30) = W6 m ρ c (Proc.devRef .tc main_v30) := W7_of_ne m ρ c main_v30 (by decide)
theorem arg5_at7 : W7 m ρ c (Proc.devRef .tc main_arg5) = W6 m ρ c (Proc.devRef .tc main_arg5) := W7_of_ne m ρ c main_arg5 (by decide)

/-! ## The result -/

/-- THE KERNEL'S VALUE: the result buffer after the last stretch holds the network function of the arguments, with the two
    matrix products as plain sums. -/
theorem result_eq : W8 m ρ c (Proc.devRef .tc main_v65)
    = Cert.Graph.network Cert.Graph.featureProduct Cert.Graph.hiddenProduct (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (tail_result (W7 m ρ c)).trans ?_
  rw [product_at7, v3_at7, v6_at7, v30_at7, arg5_at7, v3_at6, v6_at6, v30_at6, arg5_at6, v3_at4, v6_at4, v30_at4, arg5_at4,
    sources_at3, targets_at3, weights_at3, arg5_at3]
  rfl

end Cert.KernelIdeal.Hand

end
-- ==== Proof.ReferenceValue.lean ====
/-
  The idealized reference's result, as the network function of its arguments.

  The reference is one straight line of host operations: the graph's normalisation, the first `dot_general`, a propagation
  step with bias and relu, the second `dot_general`, a propagation step with bias. Evaluated at the result buffer the fold of
  those operations is the network function with the host's two `dot_general`s as its products (at any float instance); at the
  ideal instance each `dot_general` is the plain sum over its contracted axis (ProductLaw).
-/
import proofs.«108019_j58540404244885_1_alg».proof.Proof.ReferenceRun
import proofs.«108019_j58540404244885_1_alg».proof.Proof.GraphStages
import proofs.«108019_j58540404244885_1_alg».proof.Proof.ProductLaw

set_option maxRecDepth 16384

noncomputable section

namespace Cert.ReferenceIdeal.Hand

open Cert.ReferenceIdeal Cert.ReferenceIdeal.Gen Cert.ReferenceIdeal.ValueP
open Idealize.ShloMosaic Idealize.ShloMosaic.TcCoe Idealize.SL.Sem Idealize.ShloMosaic.StableHlo

section AnyInstance
variable {F : FTy → Type} [FloatOps F]

set_option maxHeartbeats 4000000 in
/-- From any buffer contents `X`, the reference's operations leave in the result buffer the network function of the six
    argument buffers, its two products the host's `dot_general`s. -/
theorem fold_result (X : Valuation τ sig (Elt F)) :
    after ops X (Proc.devRef .tc main_v65)
      = Cert.Graph.network (F := F)
          (fun a w => Host.dotGeneral dot_S100000x512_S512x16_S100000x16_1_0_0_1_n_n none a w)
          (fun h w => Host.dotGeneral dot_S100000x16_S16x40_S100000x40_1_0_0_1_n_n none h w)
          (X (Proc.devRef .tc main_arg0)) (X (Proc.devRef .tc main_arg1)) (X (Proc.devRef .tc main_arg2))
          (X (Proc.devRef .tc main_arg3)) (X (Proc.devRef .tc main_arg4)) (X (Proc.devRef .tc main_arg5)) := by
  after_results_simp
  rfl

end AnyInstance

/-- THE REFERENCE'S VALUE at the ideal instance: the network function of the arguments as launched, with the two matrix
    products as plain sums. -/
theorem result_eq (m : (ℓ : Loc nD τ sig) → Buf (Elt Ideal) ℓ) (c : Dev nD) :
    after ops (launchContents m c) (Proc.devRef .tc main_v65)
      = Cert.Graph.network Cert.Graph.featureProduct Cert.Graph.hiddenProduct (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5)) := by
  refine (fold_result (launchContents m c)).trans ?_
  have h₁ : (fun a w => Host.dotGeneral (F := Ideal) dot_S100000x512_S512x16_S100000x16_1_0_0_1_n_n none a w) = Cert.Graph.featureProduct :=
    funext fun a => funext fun w => Cert.Graph.hostFeatureProduct a w
  have h₂ : (fun h w => Host.dotGeneral (F := Ideal) dot_S100000x16_S16x40_S100000x40_1_0_0_1_n_n none h w) = Cert.Graph.hiddenProduct :=
    funext fun h => funext fun w => Cert.Graph.hostHiddenProduct h w
  rw [h₁, h₂]

end Cert.ReferenceIdeal.Hand

end
-- ==== Proof.lean ====
/-
  A two-layer graph convolution: the kernel against its jnp reference, over the extended reals.

  Both programs compute, from node features `x` (100000 × 512), an edge list (2 × 3200000), weights `W₁` (512 × 16), `W₂` (16 × 40)
  and biases `b₁`, `b₂`,
      out = P(P⁺(x·W₁ ; b₁)·W₂ ; b₂),   P(h ; b) = Â h + b,   P⁺ = relu ∘ P,
  where Â is the adjacency with self loops, normalised symmetrically by the inverse square roots of the degrees, applied by
  gathering the sources' rows, scaling them by the entries' weights and adding them into the destinations' rows. The two
  programs' host operations — the normalisation, the two propagation steps, the biases, the relu — are the same operations in
  the same order (GraphStages names them once). They differ in the two matrix products only: the reference takes each as one
  host `dot_general`; the kernel computes each in a region of its own, block of rows by block of rows, rounding both operands to
  bf16 on the way into a multiply-accumulate that starts at zero.

  Over the extended reals a change of float format is the identity, so a block's entry (p, q) is the plain sum Σ_k a(p, k) · w(k, q)
  (BlockProduct); the blocks tile the rows, so each region leaves the whole product Σ_k a(r, k) · w(k, q) in its result array
  (RegionProducts); and the host's `dot_general` is that same sum (ProductLaw). The two sums are the same sum term by term:
  nothing is reordered, regrouped or distributed, so no finiteness of the inputs is used. The kernel's result buffer, read back
  through the host stretches and the two regions (KernelRun, KernelStretches, KernelValue), and the reference's, read through its
  one line of operations (ReferenceRun, ReferenceValue), are therefore the same function of the arguments, `Cert.Graph.network`.

  The ideal pass rewrote nothing in the kernel (its roundings to bf16 have no way back), so `preserves` has no conjunct.
-/
import proofs.«108019_j58540404244885_1_alg».proof.Defs
import proofs.«108019_j58540404244885_1_alg».proof.Proof.Gen.Kernel
import proofs.«108019_j58540404244885_1_alg».proof.Proof.Gen.Kernel.Frame
import proofs.«108019_j58540404244885_1_alg».proof.Proof.Gen.KernelIdeal
import proofs.«108019_j58540404244885_1_alg».proof.Proof.Gen.KernelIdeal.Frame
import proofs.«108019_j58540404244885_1_alg».proof.Proof.Gen.ReferenceIdeal
import proofs.«108019_j58540404244885_1_alg».proof.Proof.Gen.Pre_finite_inputs
import proofs.«108019_j58540404244885_1_alg».proof.Proof.KernelRun
import proofs.«108019_j58540404244885_1_alg».proof.Proof.KernelValue
import proofs.«108019_j58540404244885_1_alg».proof.Proof.ReferenceRun
import proofs.«108019_j58540404244885_1_alg».proof.Proof.ReferenceValue
import Idealize.ShloMosaic.Adequacy
import Idealize.ShloMosaic.Init

noncomputable section

namespace Cert.Proof

open Idealize.ShloMosaic Idealize.SL.Sem

/-- The kernel as printed runs, and leaves its arguments as launched. -/
theorem frame_kernel : Cert.frame_Kernel := fun m ρ _ => Cert.Kernel.Gen.frame m ρ

/-- The idealized kernel runs, and leaves its arguments as launched. -/
theorem frame_kernelIdeal : Cert.frame_KernelIdeal := fun m ρ _ => Cert.KernelIdeal.Gen.frame m ρ

/-- The idealized reference runs, and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- From memories agreeing on the arguments both idealized programs end with the network function of those arguments in
    their result buffers: the kernel's two regions each leave the whole matrix product the reference's `dot_general` computes,
    and every other operation is shared. -/
theorem algebraic : Cert.algebraic_KernelIdeal_ReferenceIdeal := by
  intro m ρ m' ρ' _ hagree
  refine ⟨fun c => Cert.Graph.network Cert.Graph.featureProduct Cert.Graph.hiddenProduct (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5⟩ := hagree c
    rw [Cert.ReferenceIdeal.Hand.result_eq m' c, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
